-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x64x128x67 : Shape := ⟨5, ![4, 8, 64, 128, 67]⟩
abbrev S4x8x64x128x64 : Shape := ⟨5, ![4, 8, 64, 128, 64]⟩
abbrev S_ : Shape := ⟨0, ![]⟩

class Facts : Prop where
  bcast_S_S4x8x64x128x67 : S_.BroadcastsInDim S4x8x64x128x67 (![] : Fin 0 → Fin S4x8x64x128x67.rank)
  reducesTo_S4x8x64x128x67_S_d0_1_2_3_4 : S4x8x64x128x67.ReducesTo [0, 1, 2, 3, 4] S_
  h_S_ : 0 < S_.numel
  bcast_S_S4x8x64x128x64 : S_.BroadcastsInDim S4x8x64x128x64 (![] : Fin 0 → Fin S4x8x64x128x64.rank)
  reducesTo_S4x8x64x128x64_S_d0_1_2_3_4 : S4x8x64x128x64.ReducesTo [0, 1, 2, 3, 4] S_

variable [Facts]

def fn {F : FTy → Type} [FloatOps F] (main_arg0 : FVec F S4x8x64x128x67 .f32) (main_arg1 : FVec F S4x8x64x128x67 .f32) (main_arg2 : FVec F S4x8x64x128x64 .f32) : IVec S_ 1 :=
  let main_v0 : FVec F S4x8x64x128x67 .f32 := Host.absf main_arg0
  let main_cst : FVec F S_ .f32 := constant S_ .f32 0x7F800000#32
  let main_v1 : FVec F S4x8x64x128x67 .f32 := broadcastInDim S4x8x64x128x67 ![] bcast_S_S4x8x64x128x67 main_cst
  let main_v2 : IVec S4x8x64x128x67 1 := cmpf .olt main_v0 main_v1
  let main_c : IVec S_ 1 := constantI S_ 1 1#1
  let main_v3 : IVec S_ 1 := (fun x v => Host.reduce IntOp.andi x v reducesTo_S4x8x64x128x67_S_d0_1_2_3_4 h_S_) main_v2 main_c
  let main_v4 : FVec F S4x8x64x128x67 .f32 := Host.absf main_arg1
  let main_cst_0 : FVec F S_ .f32 := constant S_ .f32 0x7F800000#32
  let main_v5 : FVec F S4x8x64x128x67 .f32 := broadcastInDim S4x8x64x128x67 ![] bcast_S_S4x8x64x128x67 main_cst_0
  let main_v6 : IVec S4x8x64x128x67 1 := cmpf .olt main_v4 main_v5
  let main_c_1 : IVec S_ 1 := constantI S_ 1 1#1
  let main_v7 : IVec S_ 1 := (fun x v => Host.reduce IntOp.andi x v reducesTo_S4x8x64x128x67_S_d0_1_2_3_4 h_S_) main_v6 main_c_1
  let main_v8 : IVec S_ 1 := andi main_v3 main_v7
  let main_v9 : FVec F S4x8x64x128x64 .f32 := Host.absf main_arg2
  let main_cst_2 : FVec F S_ .f32 := constant S_ .f32 0x7F800000#32
  let main_v10 : FVec F S4x8x64x128x64 .f32 := broadcastInDim S4x8x64x128x64 ![] bcast_S_S4x8x64x128x64 main_cst_2
  let main_v11 : IVec S4x8x64x128x64 1 := cmpf .olt main_v9 main_v10
  let main_c_3 : IVec S_ 1 := constantI S_ 1 1#1
  let main_v12 : IVec S_ 1 := (fun x v => Host.reduce IntOp.andi x v reducesTo_S4x8x64x128x64_S_d0_1_2_3_4 h_S_) main_v11 main_c_3
  let main_v13 : IVec S_ 1 := andi main_v8 main_v12
  main_v13
-- ==== Kernel.lean ====
abbrev S4x8x64x128x67 : Shape := ⟨5, ![4, 8, 64, 128, 67]⟩
abbrev S4x8x64x128x64 : Shape := ⟨5, ![4, 8, 64, 128, 64]⟩
abbrev S2048x128x67 : Shape := ⟨3, ![2048, 128, 67]⟩
abbrev S2048x128x64 : Shape := ⟨3, ![2048, 128, 64]⟩
abbrev S32x128x67 : Shape := ⟨3, ![32, 128, 67]⟩
abbrev S32x128x64 : Shape := ⟨3, ![32, 128, 64]⟩
abbrev S16x128x67 : Shape := ⟨3, ![16, 128, 67]⟩
abbrev S16x128x64 : Shape := ⟨3, ![16, 128, 64]⟩
abbrev S16x128 : Shape := ⟨2, ![16, 128]⟩
abbrev S16x128x1 : Shape := ⟨3, ![16, 128, 1]⟩
abbrev S16x1x128 : Shape := ⟨3, ![16, 1, 128]⟩
abbrev S16x128x128 : Shape := ⟨3, ![16, 128, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x8x64x128x67, .f32⟩
  | .hbm, ⟨1, _⟩ => ⟨S4x8x64x128x67, .f32⟩
  | .hbm, ⟨2, _⟩ => ⟨S4x8x64x128x64, .f32⟩
  | .hbm, ⟨3, _⟩ => ⟨S2048x128x67, .f32⟩
  | .hbm, ⟨4, _⟩ => ⟨S2048x128x67, .f32⟩
  | .hbm, ⟨5, _⟩ => ⟨S2048x128x64, .f32⟩
  | .hbm, ⟨6, _⟩ => ⟨S2048x128x64, .f32⟩
  | .hbm, ⟨7, _⟩ => ⟨S4x8x64x128x64, .f32⟩
  | .local _ .vmem, ⟨0, _⟩ => ⟨S32x128x67, .f32⟩
  | .local _ .vmem, ⟨1, _⟩ => ⟨S32x128x67, .f32⟩
  | .local _ .vmem, ⟨2, _⟩ => ⟨S32x128x67, .f32⟩
  | .local _ .vmem, ⟨3, _⟩ => ⟨S32x128x67, .f32⟩
  | .local _ .vmem, ⟨4, _⟩ => ⟨S32x128x64, .f32⟩
  | .local _ .vmem, ⟨5, _⟩ => ⟨S32x128x64, .f32⟩
  | .local _ .vmem, ⟨6, _⟩ => ⟨S32x128x64, .f32⟩
  | .local _ .vmem, ⟨7, _⟩ => ⟨S32x128x64, .f32⟩
  | _, _ => ⟨S4x8x64x128x67, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c16_i32 : BitVec 32 := 16#32
  let v1 : BitVec 32 := Scalar.muli arg5 c16_i32
  v1
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let c16_i32 : BitVec 32 := 16#32
  let v1 : BitVec 32 := Scalar.muli arg5 c16_i32
  let v2 : BitVec 32 := v1
  let v3 : Index := Scalar.indexCast v2
  let c0 : Index := 0#32
  let c0_1 : Index := 0#32
  ![v3.toNat, 0, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let c16_i32 : BitVec 32 := 16#32
  let v1 : BitVec 32 := Scalar.muli arg5 c16_i32
  let v2 : BitVec 32 := v1
  let v9 : Index := Scalar.indexCast v2
  let c0_4 : Index := 0#32
  let c0_5 : Index := 0#32
  ![v9.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x67 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x67 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x8x64x128x67_S2048x128x67 : S4x8x64x128x67.ShapeCasts S2048x128x67
  shapeCasts_S4x8x64x128x64_S2048x128x64 : S4x8x64x128x64.ShapeCasts S2048x128x64
  h_S16x128x67 : 0 < S16x128x67.numel
  shapeCasts_S16x128x67_S16x128x67 : S16x128x67.ShapeCasts S16x128x67
  h_S16x128x64 : 0 < S16x128x64.numel
  shapeCasts_S16x128x64_S16x128x64 : S16x128x64.ShapeCasts S16x128x64
  reduces_S16x128x67_S16x128 : S16x128x67.Reduces [2] S16x128
  shapeCasts_S16x128_S16x128x1 : S16x128.ShapeCasts S16x128x1
  transposes_S16x128x1_p0_2_1_S16x1x128 : S16x128x1.Transposes [0, 2, 1] S16x1x128
  broadcasts_S16x128x1_S16x128x128 : S16x128x1.Broadcasts S16x128x128
  broadcasts_S16x1x128_S16x128x128 : S16x1x128.Broadcasts S16x128x128
  bitsLt_bf16_f32 : FTy.bits .bf16 < FTy.bits .f32
  shapeCasts_S2048x128x64_S4x8x64x128x64 : S2048x128x64.ShapeCasts S4x8x64x128x64
  dot_S16x128x67_S16x128x67_S16x128x128_2_2_1_1_0_0_wf : DotDims.WF S16x128x67 S16x128x67 S16x128x128 [2] [2] [1] [1] [0] [0]
  dot_S16x128x128_S16x128x64_S16x128x64_2_1_1_2_0_0_wf : DotDims.WF S16x128x128 S16x128x64 S16x128x64 [2] [1] [1] [2] [0] [0]
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S16x128x67.size a ≤ S32x128x67.size a
  k0_off2_inb : ∀ k0_t1 : Fin k0_t1_loop.trips, ∀ a, (k0_off2 k0_t1) a + S16x128x64.size a ≤ S32x128x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x67.size a ≤ S2048x128x67.size a
  hwx0_0 : ∀ i : grid0.Coords, EltTy.bits .f32 = 32 ∨ (Rect.block (s := S2048x128x67) S32x128x67.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x67.size a ≤ S2048x128x67.size a
  hwx0_1 : ∀ i : grid0.Coords, EltTy.bits .f32 = 32 ∨ (Rect.block (s := S2048x128x67) S32x128x67.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128x64.size a ≤ S2048x128x64.size a
  hwx0_2 : ∀ i : grid0.Coords, EltTy.bits .f32 = 32 ∨ (Rect.block (s := S2048x128x64) S32x128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128x64.size a ≤ S2048x128x64.size a
  hwx0_3 : ∀ i : grid0.Coords, EltTy.bits .f32 = 32 ∨ (Rect.block (s := S2048x128x64) S32x128x64.size (cc0_transform_3 i) (hinb0_3 i)).WholeWords (EltTy.packing .f32)

variable [Facts₀]

def dot_S16x128x67_S16x128x67_S16x128x128_2_2_1_1_0_0 : DotDims S16x128x67 S16x128x67 S16x128x128 where
  lhsContracting := [2]
  rhsContracting := [2]
  lhsNonContracting := [1]
  rhsNonContracting := [1]
  lhsBatch := [0]
  rhsBatch := [0]
  wf := dot_S16x128x67_S16x128x67_S16x128x128_2_2_1_1_0_0_wf
def dot_S16x128x128_S16x128x64_S16x128x64_2_1_1_2_0_0 : DotDims S16x128x128 S16x128x64 S16x128x64 where
  lhsContracting := [2]
  rhsContracting := [1]
  lhsNonContracting := [1]
  rhsNonContracting := [2]
  lhsBatch := [0]
  rhsBatch := [0]
  wf := dot_S16x128x128_S16x128x64_S16x128x64_2_1_1_2_0_0_wf

abbrev win0_0 : Pipeline.Window sig grid0 :=
  Pipeline.Window.ofSpec (Memref.whole main_v0) S32x128x67.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x128x67.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x128x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8x64x128x67 : Shape := ⟨5, ![4, 8, 64, 128, 67]⟩
abbrev S4x8x64x128x64 : Shape := ⟨5, ![4, 8, 64, 128, 64]⟩
abbrev S_ : Shape := ⟨0, ![]⟩
abbrev S4x8x64x128 : Shape := ⟨4, ![4, 8, 64, 128]⟩
abbrev S4x8x64x128x1 : Shape := ⟨5, ![4, 8, 64, 128, 1]⟩
abbrev S4x8x64x128x128 : Shape := ⟨5, ![4, 8, 64, 128, 128]⟩
abbrev S4x8x64x1x128 : Shape := ⟨5, ![4, 8, 64, 1, 128]⟩

abbrev nBuf : Space → Nat
  | .hbm => 28
  | .vmem => 0
  | .smem => 0
  | _ => 0

abbrev bufTy : (tb : Table) → Fin (tcTables nBuf tb) → BufTy
  | .hbm, ⟨0, _⟩ => ⟨S4x8x64x128x67, .f32⟩
  | .hbm, ⟨1, _⟩ => ⟨S4x8x64x128x67, .f32⟩
  | .hbm, ⟨2, _⟩ => ⟨S4x8x64x128x64, .f32⟩
  | .hbm, ⟨3, _⟩ => ⟨S4x8x64x128x67, .f32⟩
  | .hbm, ⟨4, _⟩ => ⟨S_, .f32⟩
  | .hbm, ⟨5, _⟩ => ⟨S4x8x64x128, .f32⟩
  | .hbm, ⟨6, _⟩ => ⟨S4x8x64x128x1, .f32⟩
  | .hbm, ⟨7, _⟩ => ⟨S_, .f32⟩
  | .hbm, ⟨8, _⟩ => ⟨S4x8x64x128x1, .f32⟩
  | .hbm, ⟨9, _⟩ => ⟨S4x8x64x128x1, .f32⟩
  | .hbm, ⟨10, _⟩ => ⟨S4x8x64x128x67, .f32⟩
  | .hbm, ⟨11, _⟩ => ⟨S_, .f32⟩
  | .hbm, ⟨12, _⟩ => ⟨S4x8x64x128, .f32⟩
  | .hbm, ⟨13, _⟩ => ⟨S4x8x64x128x1, .f32⟩
  | .hbm, ⟨14, _⟩ => ⟨S_, .f32⟩
  | .hbm, ⟨15, _⟩ => ⟨S4x8x64x128x1, .f32⟩
  | .hbm, ⟨16, _⟩ => ⟨S4x8x64x128x1, .f32⟩
  | .hbm, ⟨17, _⟩ => ⟨S4x8x64x128x128, .f32⟩
  | .hbm, ⟨18, _⟩ => ⟨S4x8x64x128x128, .f32⟩
  | .hbm, ⟨19, _⟩ => ⟨S4x8x64x128x128, .f32⟩
  | .hbm, ⟨20, _⟩ => ⟨S4x8x64x1x128, .f32⟩
  | .hbm, ⟨21, _⟩ => ⟨S4x8x64x128x128, .f32⟩
  | .hbm, ⟨22, _⟩ => ⟨S4x8x64x128x128, .f32⟩
  | .hbm, ⟨23, _⟩ => ⟨S_, .f32⟩
  | .hbm, ⟨24, _⟩ => ⟨S4x8x64x128x128, .f32⟩
  | .hbm, ⟨25, _⟩ => ⟨S4x8x64x128x128, .f32⟩
  | .hbm, ⟨26, _⟩ => ⟨S4x8x64x128x128, .f32⟩
  | .hbm, ⟨27, _⟩ => ⟨S4x8x64x128x64, .f32⟩
  | _, _ => ⟨S4x8x64x128x67, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S4x8x64x128x67_S4x8x64x128_d4 : S4x8x64x128x67.ReducesTo [4] S4x8x64x128
  h_S_ : 0 < S_.numel
  bcast_S4x8x64x128_S4x8x64x128x1_0_1_2_3 : S4x8x64x128.BroadcastsInDim S4x8x64x128x1 (![0, 1, 2, 3] : Fin 4 → Fin S4x8x64x128x1.rank)
  bcast_S_S4x8x64x128x1 : S_.BroadcastsInDim S4x8x64x128x1 (![] : Fin 0 → Fin S4x8x64x128x1.rank)
  bcast_S4x8x64x128x1_S4x8x64x128x128_0_1_2_3_4 : S4x8x64x128x1.BroadcastsInDim S4x8x64x128x128 (![0, 1, 2, 3, 4] : Fin 5 → Fin S4x8x64x128x128.rank)
  transposes_S4x8x64x128x1_S4x8x64x1x128_0_1_2_4_3 : S4x8x64x128x1.Transposes [0, 1, 2, 4, 3] S4x8x64x1x128
  bcast_S4x8x64x1x128_S4x8x64x128x128_0_1_2_3_4 : S4x8x64x1x128.BroadcastsInDim S4x8x64x128x128 (![0, 1, 2, 3, 4] : Fin 5 → Fin S4x8x64x128x128.rank)
  bcast_S_S4x8x64x128x128 : S_.BroadcastsInDim S4x8x64x128x128 (![] : Fin 0 → Fin S4x8x64x128x128.rank)
  dot_S4x8x64x128x67_S4x8x64x128x67_S4x8x64x128x128_4_4_3_3_012_012_wf : DotDims.WF S4x8x64x128x67 S4x8x64x128x67 S4x8x64x128x128 [4] [4] [3] [3] [0, 1, 2] [0, 1, 2]
  dot_S4x8x64x128x128_S4x8x64x128x64_S4x8x64x128x64_4_3_3_4_012_012_wf : DotDims.WF S4x8x64x128x128 S4x8x64x128x64 S4x8x64x128x64 [4] [3] [3] [4] [0, 1, 2] [0, 1, 2]

variable [Facts₀]

def dot_S4x8x64x128x67_S4x8x64x128x67_S4x8x64x128x128_4_4_3_3_012_012 : DotDims S4x8x64x128x67 S4x8x64x128x67 S4x8x64x128x128 where
  lhsContracting := [4]
  rhsContracting := [4]
  lhsNonContracting := [3]
  rhsNonContracting := [3]
  lhsBatch := [0, 1, 2]
  rhsBatch := [0, 1, 2]
  wf := dot_S4x8x64x128x67_S4x8x64x128x67_S4x8x64x128x128_4_4_3_3_012_012_wf
def dot_S4x8x64x128x128_S4x8x64x128x64_S4x8x64x128x64_4_3_3_4_012_012 : DotDims S4x8x64x128x128 S4x8x64x128x64 S4x8x64x128x64 where
  lhsContracting := [4]
  rhsContracting := [3]
  lhsNonContracting := [3]
  rhsNonContracting := [4]
  lhsBatch := [0, 1, 2]
  rhsBatch := [0, 1, 2]
  wf := dot_S4x8x64x128x128_S4x8x64x128x64_S4x8x64x128x64_4_3_3_4_012_012_wf

class Facts : Prop extends Facts₀ where

variable [Facts]
-- ==== Proof.AttnSpec.lean ====
/-
  Block-local radial-basis attention, written once as a function of the argument arrays.

  One block is 128 query rows `q_i`, 128 key rows `k_j` (67 features each) and 128 value rows `v_j`
  (64 features each). Entry `(i, e)` of the block's result is

      ∑_j exp (min ((q_i · k_j + (-1/2) · ‖q_i‖²) + (-1/2) · ‖k_j‖², 0)) · v_j e ,

  with `q_i · k_j = ∑_d q_i d · k_j d` and `‖x‖² = ∑_d x d · x d`, all sums and products those of the
  extended reals. The two scalars are kept as the f32 words both programs print (`0xBF000000` for
  `-1/2`, `0x00000000` for `0`): the same word on both sides is never evaluated.

  `entry` is that number for one query row, the block's keys and one value column; `attn3` reads it
  over arrays whose leading axis counts blocks, `attn5` over the arrays as the programs receive
  them, the leading three axes together naming the block.
-/
import Idealize.ShloMosaic.PureOps.Ideal
import Idealize.ShloMosaic.Lib.ValueIdx

noncomputable section

namespace Cert.AttnSpec

open Idealize.ShloMosaic Idealize.ShloMosaic.ValueIdx
open scoped BigOperators

/-- The scalar `-1/2`, as the f32 word both programs multiply the squared norms by. -/
abbrev negHalf : EReal := Ideal.ofBits .f32 0xBF000000#32
/-- The scalar `0`, as the f32 word both programs clamp the exponent against. -/
abbrev zeroW : EReal := Ideal.ofBits .f32 0x00000000#32

/-- One entry of one block's result: the query row `q`, the block's key rows `k`, one column `v` of its values. -/
def entry (q : Fin 67 → EReal) (k : Fin 128 → Fin 67 → EReal) (v : Fin 128 → EReal) : EReal :=
  ∑ j : Fin 128,
    Ideal.exp (min (((∑ d : Fin 67, q d * k j d) + negHalf * ∑ d : Fin 67, q d * q d)
        + negHalf * ∑ d : Fin 67, k j d * k j d) zeroW) * v j

/-- The result over arrays of `N` blocks, at block `n`, row `r`, column `e`. -/
def attn3At {N : Nat} (q k : (⟨3, ![N, 128, 67]⟩ : Shape).Idx → EReal) (v : (⟨3, ![N, 128, 64]⟩ : Shape).Idx → EReal)
    (n : Fin N) (r : Fin 128) (e : Fin 64) : EReal :=
  entry (fun d => q (ix3 n r d)) (fun j d => k (ix3 n j d)) (fun j => v (ix3 n j e))

/-- The same as an array. -/
def attn3 {N : Nat} (q k : (⟨3, ![N, 128, 67]⟩ : Shape).Idx → EReal) (v : (⟨3, ![N, 128, 64]⟩ : Shape).Idx → EReal) :
    (⟨3, ![N, 128, 64]⟩ : Shape).Idx → EReal :=
  fun y => attn3At q k v (y 0) (y 1) (y 2)

/-- The result over the arrays as given, the block named by the three leading coordinates. -/
def attn5At (Q K : (⟨5, ![4, 8, 64, 128, 67]⟩ : Shape).Idx → EReal) (V : (⟨5, ![4, 8, 64, 128, 64]⟩ : Shape).Idx → EReal)
    (a : Fin 4) (b : Fin 8) (c : Fin 64) (r : Fin 128) (e : Fin 64) : EReal :=
  entry (fun d => Q (ix5 a b c r d)) (fun j d => K (ix5 a b c j d)) (fun j => V (ix5 a b c j e))

/-- The same as an array: what both programs leave in their result. -/
def attn5 (Q K : (⟨5, ![4, 8, 64, 128, 67]⟩ : Shape).Idx → EReal) (V : (⟨5, ![4, 8, 64, 128, 64]⟩ : Shape).Idx → EReal) :
    (⟨5, ![4, 8, 64, 128, 64]⟩ : Shape).Idx → EReal :=
  fun i => attn5At Q K V (i 0) (i 1) (i 2) (i 3) (i 4)

end Cert.AttnSpec

end
-- ==== Proof.KernelPayload.lean ====
/-
  The kernel body's one stored value, read at an index.

  For a chunk of 16 blocks the body computes, from the chunk's queries `q`, keys `k` and values `v`:
  the squared norms of the rows summed over the 67 features and scaled by `-1/2`; the 128 × 128
  matrix of inner products `q_i · k_j` of each block; their sum with the query term (constant along
  `j`) and the key term (constant along `i`, a transposed column); the exponential of its minimum
  with zero; and the product of that matrix with the block's values. Read at block `b`, row `r`,
  column `e` over the extended reals — a change of float format is the identity there, a product
  into a zero accumulator is the plain sum over the contracted axis, a lane reduction from zero is
  the plain sum over the lane — this is `AttnSpec.attn3At q k v b r e`.
-/
import proofs.«114742_j23132693856576_2_alg».proof.Proof.Gen.KernelIdeal.Skeleton
import proofs.«114742_j23132693856576_2_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx
open Cert.KernelIdeal Cert.KernelIdeal.Gen Cert.AttnSpec
open scoped BigOperators

/-! ## The two products' index maps -/

/-- The dimension numbers of the product of queries with keys: batch axis 0, rows against rows, the feature axis contracted. -/
abbrev Dqk := dot_S16x128x67_S16x128x67_S16x128x128_2_2_1_1_0_0
/-- The dimension numbers of the product of the weights with the values: batch axis 0, the key axis contracted. -/
abbrev Dwv := dot_S16x128x128_S16x128x64_S16x128x64_2_1_1_2_0_0

/-- The left factor's coordinates at a result entry `i` and a contraction position `q`: batch, row, feature. -/
theorem Dqk_lhs_0 (i : S16x128x128.Idx) (q : Dqk.contr.Idx) : (Dqk.lhsIdx i q 0).val = (i 0).val := by
  unfold DotDims.lhsIdx
  rw [dif_pos (show (0 : Fin S16x128x67.rank) ∈ Dqk.lhsBatch by decide)]
  rfl
theorem Dqk_lhs_1 (i : S16x128x128.Idx) (q : Dqk.contr.Idx) : (Dqk.lhsIdx i q 1).val = (i 1).val := by
  unfold DotDims.lhsIdx
  rw [dif_neg (show ¬(1 : Fin S16x128x67.rank) ∈ Dqk.lhsBatch by decide),
    dif_pos (show (1 : Fin S16x128x67.rank) ∈ Dqk.lhsNonContracting by decide)]
  rfl
theorem Dqk_lhs_2 (i : S16x128x128.Idx) (q : Dqk.contr.Idx) : (Dqk.lhsIdx i q 2).val = (q ⟨0, by decide⟩).val :=
  Dqk.lhsIdx_val_of_single rfl i q
/-- The right factor's: batch, the result's column as its row, feature. -/
theorem Dqk_rhs_0 (i : S16x128x128.Idx) (q : Dqk.contr.Idx) : (Dqk.rhsIdx i q 0).val = (i 0).val := by
  unfold DotDims.rhsIdx
  rw [dif_pos (show (0 : Fin S16x128x67.rank) ∈ Dqk.rhsBatch by decide)]
  rfl
theorem Dqk_rhs_1 (i : S16x128x128.Idx) (q : Dqk.contr.Idx) : (Dqk.rhsIdx i q 1).val = (i 2).val := by
  unfold DotDims.rhsIdx
  rw [dif_neg (show ¬(1 : Fin S16x128x67.rank) ∈ Dqk.rhsBatch by decide),
    dif_pos (show (1 : Fin S16x128x67.rank) ∈ Dqk.rhsNonContracting by decide)]
  rfl
theorem Dqk_rhs_2 (i : S16x128x128.Idx) (q : Dqk.contr.Idx) : (Dqk.rhsIdx i q 2).val = (q ⟨0, by decide⟩).val :=
  Dqk.rhsIdx_val_of_single rfl i q

/-- At result entry `(b, r, j)` and feature `d` the left factor sits at `(b, r, d)`. -/
theorem Dqk_lhs (b : Fin 16) (r j : Fin 128) (d : Fin 67) :
    Dqk.lhsIdx (ix3 b r j) ((contrEquiv1 Dqk 67 rfl rfl).symm d) = ix3 b r d := funext fun a => Fin.ext (by
  have hd := contrEquiv1_symm_val Dqk 67 rfl rfl d
  match a with
  | ⟨0, _⟩ => exact Dqk_lhs_0 _ _
  | ⟨1, _⟩ => exact Dqk_lhs_1 _ _
  | ⟨2, _⟩ => exact (Dqk_lhs_2 _ _).trans hd)

/-- … and the right factor at `(b, j, d)`. -/
theorem Dqk_rhs (b : Fin 16) (r j : Fin 128) (d : Fin 67) :
    Dqk.rhsIdx (ix3 b r j) ((contrEquiv1 Dqk 67 rfl rfl).symm d) = ix3 b j d := funext fun a => Fin.ext (by
  have hd := contrEquiv1_symm_val Dqk 67 rfl rfl d
  match a with
  | ⟨0, _⟩ => exact Dqk_rhs_0 _ _
  | ⟨1, _⟩ => exact Dqk_rhs_1 _ _
  | ⟨2, _⟩ => exact (Dqk_rhs_2 _ _).trans hd)

/-- The weight's coordinates at a result entry `i` and a contraction position `q`: batch, row, key. -/
theorem Dwv_lhs_0 (i : S16x128x64.Idx) (q : Dwv.contr.Idx) : (Dwv.lhsIdx i q 0).val = (i 0).val := by
  unfold DotDims.lhsIdx
  rw [dif_pos (show (0 : Fin S16x128x128.rank) ∈ Dwv.lhsBatch by decide)]
  rfl
theorem Dwv_lhs_1 (i : S16x128x64.Idx) (q : Dwv.contr.Idx) : (Dwv.lhsIdx i q 1).val = (i 1).val := by
  unfold DotDims.lhsIdx
  rw [dif_neg (show ¬(1 : Fin S16x128x128.rank) ∈ Dwv.lhsBatch by decide),
    dif_pos (show (1 : Fin S16x128x128.rank) ∈ Dwv.lhsNonContracting by decide)]
  rfl
theorem Dwv_lhs_2 (i : S16x128x64.Idx) (q : Dwv.contr.Idx) : (Dwv.lhsIdx i q 2).val = (q ⟨0, by decide⟩).val :=
  Dwv.lhsIdx_val_of_single rfl i q
/-- The value's: batch, key, column. -/
theorem Dwv_rhs_0 (i : S16x128x64.Idx) (q : Dwv.contr.Idx) : (Dwv.rhsIdx i q 0).val = (i 0).val := by
  unfold DotDims.rhsIdx
  rw [dif_pos (show (0 : Fin S16x128x64.rank) ∈ Dwv.rhsBatch by decide)]
  rfl
theorem Dwv_rhs_1 (i : S16x128x64.Idx) (q : Dwv.contr.Idx) : (Dwv.rhsIdx i q 1).val = (q ⟨0, by decide⟩).val :=
  Dwv.rhsIdx_val_of_single rfl i q
theorem Dwv_rhs_2 (i : S16x128x64.Idx) (q : Dwv.contr.Idx) : (Dwv.rhsIdx i q 2).val = (i 2).val := by
  unfold DotDims.rhsIdx
  rw [dif_neg (show ¬(2 : Fin S16x128x64.rank) ∈ Dwv.rhsBatch by decide),
    dif_pos (show (2 : Fin S16x128x64.rank) ∈ Dwv.rhsNonContracting by decide)]
  rfl

/-- At result entry `(b, r, e)` and key `j` the weight sits at `(b, r, j)`. -/
theorem Dwv_lhs (b : Fin 16) (r : Fin 128) (e : Fin 64) (j : Fin 128) :
    Dwv.lhsIdx (ix3 b r e) ((contrEquiv1 Dwv 128 rfl rfl).symm j) = ix3 b r j := funext fun a => Fin.ext (by
  have hj := contrEquiv1_symm_val Dwv 128 rfl rfl j
  match a with
  | ⟨0, _⟩ => exact Dwv_lhs_0 _ _
  | ⟨1, _⟩ => exact Dwv_lhs_1 _ _
  | ⟨2, _⟩ => exact (Dwv_lhs_2 _ _).trans hj)

/-- … and the value at `(b, j, e)`. -/
theorem Dwv_rhs (b : Fin 16) (r : Fin 128) (e : Fin 64) (j : Fin 128) :
    Dwv.rhsIdx (ix3 b r e) ((contrEquiv1 Dwv 128 rfl rfl).symm j) = ix3 b j e := funext fun a => Fin.ext (by
  have hj := contrEquiv1_symm_val Dwv 128 rfl rfl j
  match a with
  | ⟨0, _⟩ => exact Dwv_rhs_0 _ _
  | ⟨1, _⟩ => exact (Dwv_rhs_1 _ _).trans hj
  | ⟨2, _⟩ => exact Dwv_rhs_2 _ _)

/-- The product of queries with keys into a zero accumulator: entry `(b, r, j)` is `q_r · k_j` of block `b`. -/
theorem qk_apply (x y : FVec Ideal S16x128x67 .f32) (b : Fin 16) (r j : Fin 128) :
    matmul Dqk (some .fp32) x y (constant (F := Ideal) S16x128x128 .f32 0x00000000#32) (ix3 b r j)
      = ∑ d : Fin 67, x (ix3 b r d) * y (ix3 b j d) := by
  simp only [matmul]
  rw [Ideal.matmul_constant_zero_apply, ← Equiv.sum_comp (contrEquiv1 Dqk 67 rfl rfl).symm]
  refine Finset.sum_congr rfl fun d _ => ?_
  rw [Dqk_lhs, Dqk_rhs]

/-- The product of weights with values into a zero accumulator: entry `(b, r, e)` is `∑_j w_{r j} · v_{j e}` of block `b`. -/
theorem wv_apply (w : FVec Ideal S16x128x128 .bf16) (v : FVec Ideal S16x128x64 .bf16) (b : Fin 16) (r : Fin 128) (e : Fin 64) :
    matmul Dwv none w v (constant (F := Ideal) S16x128x64 .f32 0x00000000#32) (ix3 b r e)
      = ∑ j : Fin 128, w (ix3 b r j) * v (ix3 b j e) := by
  simp only [matmul]
  rw [Ideal.matmul_constant_zero_apply, ← Equiv.sum_comp (contrEquiv1 Dwv 128 rfl rfl).symm]
  refine Finset.sum_congr rfl fun j _ => ?_
  rw [Dwv_lhs, Dwv_rhs]

/-! ## The layout operations of the body read at an index -/

/-- A column `[16, 128, 1]` spread along the last axis reads its row's one entry. -/
theorem bcast_col_apply (u : FVec Ideal S16x128x1 .f32) (b : Fin 16) (r j : Fin 128) :
    broadcastTo S16x128x128 u broadcasts_S16x128x1_S16x128x128 (ix3 b r j) = u (ix3 b r (0 : Fin 1)) :=
  broadcastTo_apply u _ (ix3 b r j) (ix3 b r (0 : Fin 1)) fun a => by
    match a with
    | ⟨0, _⟩ => show b.val = if (16 : ℕ) = 1 then 0 else b.val; rw [if_neg (by decide)]
    | ⟨1, _⟩ => show r.val = if (128 : ℕ) = 1 then 0 else r.val; rw [if_neg (by decide)]
    | ⟨2, _⟩ => show 0 = if (1 : ℕ) = 1 then 0 else j.val; rw [if_pos rfl]

/-- A row `[16, 1, 128]` spread along the middle axis reads its column's one entry. -/
theorem bcast_row_apply (w : FVec Ideal S16x1x128 .f32) (b : Fin 16) (r j : Fin 128) :
    broadcastTo S16x128x128 w broadcasts_S16x1x128_S16x128x128 (ix3 b r j) = w (ix3 b (0 : Fin 1) j) :=
  broadcastTo_apply w _ (ix3 b r j) (ix3 b (0 : Fin 1) j) fun a => by
    match a with
    | ⟨0, _⟩ => show b.val = if (16 : ℕ) = 1 then 0 else b.val; rw [if_neg (by decide)]
    | ⟨1, _⟩ => show 0 = if (1 : ℕ) = 1 then 0 else r.val; rw [if_pos rfl]
    | ⟨2, _⟩ => show j.val = if (128 : ℕ) = 1 then 0 else j.val; rw [if_neg (by decide)]

/-- The scaled squared norm of row `r` of block `b`: the lane sum of the squares from zero, kept as a column, times `-1/2`. -/
theorem halfSq_apply (x : FVec Ideal S16x128x67 .f32) (hφ : FKind.Formats .f32)
    (hacc : (0x00000000#32 : BitVec 32) = FKind.add.neutral .f32 hφ) (b : Fin 16) (r : Fin 128) (z : Fin 1) :
    mulf (broadcast S16x128x1 (FloatOps.ofBits (F := Ideal) .f32 0xBF000000#32))
        (shapeCast S16x128x1 (multiReduction .add [2] S16x128 (mulf x x) 0x00000000#32 reduces_S16x128x67_S16x128 hφ hacc)
          shapeCasts_S16x128_S16x128x1) (ix3 b r z)
      = negHalf * ∑ d : Fin 67, x (ix3 b r d) * x (ix3 b r d) := by
  rw [mulf_apply, broadcast_apply]
  refine congrArg (negHalf * ·) ?_
  refine (shapeCast_apply _ shapeCasts_S16x128_S16x128x1 (ix3 b r z) (ix2 b r) (by
    have hz : z.val = 0 := by omega
    rw [Shape.rowMajor_val_two, Shape.rowMajor_val_three]
    show b.val * 128 + r.val = (b.val * 128 + r.val) * 1 + z.val
    omega)).trans ?_
  refine (Ideal.multiReduction_add_single (mulf x x) 0x00000000#32 reduces_S16x128x67_S16x128 hφ hacc (ix2 b r)).trans ?_
  refine Finset.sum_congr rfl fun d _ => ?_
  have hl : reduces_S16x128x67_S16x128.lift (ix2 b r) d = ix3 b r d :=
    funext fun a => Fin.ext (by match a with | ⟨0, _⟩ => rfl | ⟨1, _⟩ => rfl | ⟨2, _⟩ => rfl)
  rw [hl]
  rfl

/-! ## The stored value -/

/-- The body's stored value at block `b`, row `r`, column `e` of the chunk is the specification's entry there. -/
theorem pay_apply (v4 v7 : Vec Ideal S16x128x67 .f32) (v10 : Vec Ideal S16x128x64 .f32) (b : Fin 16) (r : Fin 128) (e : Fin 64) :
    k0_pay1 (F := Ideal) v4 v7 v10 (ix3 b r e) = attn3At v4 v7 v10 b r e := by
  unfold k0_pay1
  dsimp only
  simp only [shapeCast_self]
  refine (wv_apply _ _ b r e).trans ?_
  unfold attn3At entry
  refine Finset.sum_congr rfl fun j _ => ?_
  refine congrArg (· * v10 (ix3 b j e)) ?_
  refine congrArg Ideal.exp (congrArg (min · zeroW) ?_)
  refine congrArg₂ (· + ·) (congrArg₂ (· + ·) ?_ ?_) ?_
  · exact qk_apply v4 v7 b r j
  · exact (bcast_col_apply _ b r j).trans (halfSq_apply v4 _ _ b r 0)
  · refine (bcast_row_apply _ b r j).trans ?_
    refine (transpose_ix3_021_apply _ transposes_S16x128x1_p0_2_1_S16x1x128 b (0 : Fin 1) j).trans ?_
    exact halfSq_apply v7 _ _ b j 0

end Cert.KernelIdeal.Payload

end
-- ==== Proof.KernelBlock.lean ====
/-
  What the kernel body leaves in its output buffer at one grid point.

  A grid point stages 32 blocks of queries, keys and values. The body walks them in two chunks of 16:
  trip `k` of its loop loads blocks `16k … 16k + 15` of the three inputs, computes the stored value of
  those (KernelPayload) and stores it at the same blocks of the output buffer. So the output buffer is
  written by two pieces which tile it, and each piece is the restriction of ONE function of the buffer's
  index: the specification `AttnSpec.attn3` of the three staged inputs. Hence the buffer ends holding
  that function.
-/
import proofs.«114742_j23132693856576_2_alg».proof.Proof.Gen.KernelIdeal.Frame
import proofs.«114742_j23132693856576_2_alg».proof.Proof.KernelPayload
import Idealize.ShloMosaic.Lib.Pipeline.Value
import Idealize.ShloMosaic.Lib.ValueIdx

set_option maxRecDepth 16384

noncomputable section

namespace Cert.KernelIdeal.Block

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Payload Cert.AttnSpec

variable {F : FTy → Type} [FloatOps F]

/-- One trip of the chunk loop writes one piece: at the chunk's sixteen blocks of the output buffer, the payload of the
    same sixteen blocks of the three input buffers. -/
theorem tripL_eq (𝒱 : Variants) (c : Dev nD) (bd : Option 𝒱.V) (i : grid0.Coords)
    (arg1 : Memref sig .tc .vmem S32x128x67 .f32) (harg1 : arg1.IsWhole) (arg2 : Memref sig .tc .vmem S32x128x67 .f32) (harg2 : arg2.IsWhole)
    (arg3 : Memref sig .tc .vmem S32x128x64 .f32) (harg3 : arg3.IsWhole) (arg4 : Memref sig .tc .vmem S32x128x64 .f32) (harg4 : arg4.IsWhole)
    (X1 : BufTy.Contents (Elt F) arg1.view.ty) (X2 : BufTy.Contents (Elt F) arg2.view.ty) (X3 : BufTy.Contents (Elt F) arg3.view.ty)
    (k : Fin k0_t1_loop.trips) :
    tripL_k0_t1 (F := F) 𝒱 c bd i arg1 harg1 arg2 harg2 arg3 harg3 arg4 harg4 X1 X2 X3 k
      = [⟨Rect.unit (s := S32x128x64) (k0_off2 k) S16x128x64.size (k0_off2_inb k),
          k0_pay1 (View.readAt (Elt F) arg1.view (Rect.unit (s := S32x128x67) (k0_off1 k) S16x128x67.size (k0_off1_inb k)).toLoadRect X1)
            (View.readAt (Elt F) arg2.view (Rect.unit (s := S32x128x67) (k0_off1 k) S16x128x67.size (k0_off1_inb k)).toLoadRect X2)
            (View.readAt (Elt F) arg3.view (Rect.unit (s := S32x128x64) (k0_off2 k) S16x128x64.size (k0_off2_inb k)).toLoadRect X3)⟩] := by
  show (trip_k0_t1 (F := F) 𝒱 c bd i arg1 harg1 arg2 harg2 arg3 harg3 arg4 harg4 X1 X2 X3 k).1 = _
  unfold trip_k0_t1
  rfl

/-- Every piece the loop has written before trip `n` is some trip's piece. -/
theorem mem_pb (𝒱 : Variants) (c : Dev nD) (bd : Option 𝒱.V) (i : grid0.Coords)
    (arg1 : Memref sig .tc .vmem S32x128x67 .f32) (harg1 : arg1.IsWhole) (arg2 : Memref sig .tc .vmem S32x128x67 .f32) (harg2 : arg2.IsWhole)
    (arg3 : Memref sig .tc .vmem S32x128x64 .f32) (harg3 : arg3.IsWhole) (arg4 : Memref sig .tc .vmem S32x128x64 .f32) (harg4 : arg4.IsWhole)
    (X1 : BufTy.Contents (Elt F) arg1.view.ty) (X2 : BufTy.Contents (Elt F) arg2.view.ty) (X3 : BufTy.Contents (Elt F) arg3.view.ty) :
    ∀ (n : ℕ) (p : View.Piece (Elt F) S32x128x64 .f32),
      p ∈ pb_k0_t1 (F := F) 𝒱 c bd i arg1 harg1 arg2 harg2 arg3 harg3 arg4 harg4 X1 X2 X3 n →
      ∃ k : Fin k0_t1_loop.trips, p = ⟨Rect.unit (s := S32x128x64) (k0_off2 k) S16x128x64.size (k0_off2_inb k),
          k0_pay1 (View.readAt (Elt F) arg1.view (Rect.unit (s := S32x128x67) (k0_off1 k) S16x128x67.size (k0_off1_inb k)).toLoadRect X1)
            (View.readAt (Elt F) arg2.view (Rect.unit (s := S32x128x67) (k0_off1 k) S16x128x67.size (k0_off1_inb k)).toLoadRect X2)
            (View.readAt (Elt F) arg3.view (Rect.unit (s := S32x128x64) (k0_off2 k) S16x128x64.size (k0_off2_inb k)).toLoadRect X3)⟩
  | 0, p, h => by rw [pb_k0_t1.eq_1] at h; exact absurd h List.not_mem_nil
  | n + 1, p, h => by
    rw [pb_k0_t1.eq_2] at h
    unfold pb_k0_t1Step at h
    split at h
    · rename_i hn
      rcases List.mem_append.mp h with h | h
      · rw [tripL_eq] at h
        exact ⟨⟨n, hn⟩, List.mem_singleton.mp h⟩
      · exact mem_pb 𝒱 c bd i arg1 harg1 arg2 harg2 arg3 harg3 arg4 harg4 X1 X2 X3 n p h
    · exact mem_pb 𝒱 c bd i arg1 harg1 arg2 harg2 arg3 harg3 arg4 harg4 X1 X2 X3 n p h

/-- The whole body's pieces are the loop's. -/
theorem run_pieces (c : Dev nD) (i : grid0.Coords)
    (arg1 : Memref sig .tc .vmem S32x128x67 .f32) (harg1 : arg1.IsWhole) (arg2 : Memref sig .tc .vmem S32x128x67 .f32) (harg2 : arg2.IsWhole)
    (arg3 : Memref sig .tc .vmem S32x128x64 .f32) (harg3 : arg3.IsWhole) (arg4 : Memref sig .tc .vmem S32x128x64 .f32) (harg4 : arg4.IsWhole)
    (x0 x1 : Vec F S32x128x67 .f32) (x2 : Vec F S32x128x64 .f32) :
    (kernelRun0_A c i arg1 harg1 arg2 harg2 arg3 harg3 arg4 harg4 x0 x1 x2).1
      = pb_k0_t1 (F := F) Variants.none c none i arg1 harg1 arg2 harg2 arg3 harg3 arg4 harg4 (harg1.unread x0) (harg2.unread x1) (harg3.unread x2) k0_t1_loop.trips := by
  unfold kernelRun0_A
  rfl

/-- A trip's piece is the specification of the staged inputs, restricted to the piece's rectangle: the trip's loads read
    blocks `16k + b` of the inputs, and its store lands at blocks `16k + b` of the output. -/
theorem piece_eq {arg1 : Memref sig .tc .vmem S32x128x67 .f32} (harg1 : arg1.IsWhole) {arg2 : Memref sig .tc .vmem S32x128x67 .f32} (harg2 : arg2.IsWhole)
    {arg3 : Memref sig .tc .vmem S32x128x64 .f32} (harg3 : arg3.IsWhole)
    (x0 x1 : Vec Ideal S32x128x67 .f32) (x2 : Vec Ideal S32x128x64 .f32) (k : Fin k0_t1_loop.trips)
    (x : (Rect.unit (s := S32x128x64) (k0_off2 k) S16x128x64.size (k0_off2_inb k)).shape.Idx) :
    k0_pay1 (F := Ideal)
        (View.readAt (Elt Ideal) arg1.view (Rect.unit (s := S32x128x67) (k0_off1 k) S16x128x67.size (k0_off1_inb k)).toLoadRect (harg1.unread x0))
        (View.readAt (Elt Ideal) arg2.view (Rect.unit (s := S32x128x67) (k0_off1 k) S16x128x67.size (k0_off1_inb k)).toLoadRect (harg2.unread x1))
        (View.readAt (Elt Ideal) arg3.view (Rect.unit (s := S32x128x64) (k0_off2 k) S16x128x64.size (k0_off2_inb k)).toLoadRect (harg3.unread x2)) x
      = attn3 x0 x1 x2 ((Rect.unit (s := S32x128x64) (k0_off2 k) S16x128x64.size (k0_off2_inb k)).emb x) := by
  simp only [View.readAt_eq_ld, harg1.read_unread, harg2.read_unread, harg3.read_unread]
  obtain ⟨b, r, e, rfl⟩ : ∃ (b : Fin 16) (r : Fin 128) (e : Fin 64), x = ix3 b r e := ⟨x 0, x 1, x 2, eq_ix3 x⟩
  rw [pay_apply]
  have a0 : k0_off1 k 0 = 16 * k.val := congrFun (k0_off1_eq k) 0
  have a1 : k0_off1 k 1 = 0 := congrFun (k0_off1_eq k) 1
  have a2 : k0_off1 k 2 = 0 := congrFun (k0_off1_eq k) 2
  have c0 : k0_off2 k 0 = 16 * k.val := congrFun (k0_off2_eq k) 0
  have c1 : k0_off2 k 1 = 0 := congrFun (k0_off2_eq k) 1
  have c2 : k0_off2 k 2 = 0 := congrFun (k0_off2_eq k) 2
  unfold attn3 attn3At
  refine congr (congr (congrArg entry ?_) ?_) ?_
  · funext d
    refine congrArg x0 (funext fun a => Fin.ext ?_)
    match a with
    | ⟨0, _⟩ => show k0_off1 k 0 + 1 * b.val = k0_off2 k 0 + 1 * b.val; rw [a0, c0]
    | ⟨1, _⟩ => show k0_off1 k 1 + 1 * r.val = k0_off2 k 1 + 1 * r.val; rw [a1, c1]
    | ⟨2, _⟩ => show k0_off1 k 2 + 1 * d.val = d.val; rw [a2]; omega
  · funext j d
    refine congrArg x1 (funext fun a => Fin.ext ?_)
    match a with
    | ⟨0, _⟩ => show k0_off1 k 0 + 1 * b.val = k0_off2 k 0 + 1 * b.val; rw [a0, c0]
    | ⟨1, _⟩ => show k0_off1 k 1 + 1 * j.val = j.val; rw [a1]; omega
    | ⟨2, _⟩ => show k0_off1 k 2 + 1 * d.val = d.val; rw [a2]; omega
  · funext j
    refine congrArg x2 (funext fun a => Fin.ext ?_)
    match a with
    | ⟨0, _⟩ => rfl
    | ⟨1, _⟩ => show k0_off2 k 1 + 1 * j.val = j.val; rw [c1]; omega
    | ⟨2, _⟩ => rfl

/-- What the body leaves in the output's staging buffer: the specification of the three staged input blocks. -/
theorem out_eq (c : Dev nD) (i : grid0.Coords)
    (arg1 : Memref sig .tc .vmem S32x128x67 .f32) (harg1 : arg1.IsWhole) (arg2 : Memref sig .tc .vmem S32x128x67 .f32) (harg2 : arg2.IsWhole)
    (arg3 : Memref sig .tc .vmem S32x128x64 .f32) (harg3 : arg3.IsWhole) (arg4 : Memref sig .tc .vmem S32x128x64 .f32) (harg4 : arg4.IsWhole)
    (x0 x1 : Vec Ideal S32x128x67 .f32) (x2 : Vec Ideal S32x128x64 .f32) :
    out0_A_3 (F := Ideal) c i arg1 harg1 arg2 harg2 arg3 harg3 arg4 harg4 x0 x1 x2 = attn3 x0 x1 x2 := by
  unfold out0_A_3
  rw [View.read_writes_eq_canon _ _ _ (cover0_A_3 c i arg1 harg1 arg2 harg2 arg3 harg3 arg4 harg4 x0 x1 x2)]
  funext y
  refine View.canon_apply_of_pieces (attn3 x0 x1 x2) _ ?_ y (cover0_A_3 c i arg1 harg1 arg2 harg2 arg3 harg3 arg4 harg4 x0 x1 x2 y)
  intro p hp x
  rw [run_pieces] at hp
  obtain ⟨k, rfl⟩ := mem_pb _ _ _ _ _ _ _ _ _ _ _ _ _ _ _ _ _ hp
  exact piece_eq harg1 harg2 harg3 x0 x1 x2 k x

end Cert.KernelIdeal.Block
end
-- ==== Proof.Bridge.lean ====
/-
  Flattening the block name.

  The kernel names a block by one number `n = (a · 8 + b) · 64 + c` (its arrays are the arguments with
  the three leading axes merged, row-major) and the reference by the triple `(a, b, c)`. Since the
  specification at a block reads only that block's rows, the specification over the merged arrays,
  with its result's leading axis split again, is the specification over the arguments.
-/
import proofs.«114742_j23132693856576_2_alg».proof.Proof.AttnSpec
import Idealize.ShloMosaic.Lib.Pipeline.Value
import Idealize.ShloMosaic.Lib.ValueIdx

noncomputable section

namespace Cert.AttnSpec

open Idealize.ShloMosaic Idealize.ShloMosaic.ValueIdx

/-- The merged name of block `(a, b, c)`. -/
def flat (a : Fin 4) (b : Fin 8) (c : Fin 64) : Fin 2048 :=
  ⟨(a.val * 8 + b.val) * 64 + c.val, by have := a.isLt; have := b.isLt; have := c.isLt; omega⟩

/-- An array with 67 features merged along its three leading axes reads, at block `flat a b c`, the array at `(a, b, c)`. -/
theorem merge67_apply (X : (⟨5, ![4, 8, 64, 128, 67]⟩ : Shape).Idx → EReal)
    (h : (⟨5, ![4, 8, 64, 128, 67]⟩ : Shape).ShapeCasts ⟨3, ![2048, 128, 67]⟩)
    (a : Fin 4) (b : Fin 8) (c : Fin 64) (r : Fin 128) (d : Fin 67) :
    shapeCast ⟨3, ![2048, 128, 67]⟩ X h (ix3 (flat a b c) r d) = X (ix5 a b c r d) :=
  shapeCast_apply X h _ _ (by
    rw [Shape.rowMajor_val_three, Shape.rowMajor_val_five]
    rfl)

/-- The same with 64 features. -/
theorem merge64_apply (X : (⟨5, ![4, 8, 64, 128, 64]⟩ : Shape).Idx → EReal)
    (h : (⟨5, ![4, 8, 64, 128, 64]⟩ : Shape).ShapeCasts ⟨3, ![2048, 128, 64]⟩)
    (a : Fin 4) (b : Fin 8) (c : Fin 64) (r : Fin 128) (e : Fin 64) :
    shapeCast ⟨3, ![2048, 128, 64]⟩ X h (ix3 (flat a b c) r e) = X (ix5 a b c r e) :=
  shapeCast_apply X h _ _ (by
    rw [Shape.rowMajor_val_three, Shape.rowMajor_val_five]
    rfl)

/-- An array over merged blocks with its leading axis split reads, at `(a, b, c)`, the array at block `flat a b c`. -/
theorem split64_apply (Y : (⟨3, ![2048, 128, 64]⟩ : Shape).Idx → EReal)
    (h : (⟨3, ![2048, 128, 64]⟩ : Shape).ShapeCasts ⟨5, ![4, 8, 64, 128, 64]⟩)
    (a : Fin 4) (b : Fin 8) (c : Fin 64) (r : Fin 128) (e : Fin 64) :
    shapeCast ⟨5, ![4, 8, 64, 128, 64]⟩ Y h (ix5 a b c r e) = Y (ix3 (flat a b c) r e) :=
  shapeCast_apply Y h _ _ (by
    rw [Shape.rowMajor_val_three, Shape.rowMajor_val_five]
    rfl)

/-- The specification over the merged arrays, its result split again, is the specification over the arguments. -/
theorem attn_merge (Q K : (⟨5, ![4, 8, 64, 128, 67]⟩ : Shape).Idx → EReal) (V : (⟨5, ![4, 8, 64, 128, 64]⟩ : Shape).Idx → EReal)
    (h67 : (⟨5, ![4, 8, 64, 128, 67]⟩ : Shape).ShapeCasts ⟨3, ![2048, 128, 67]⟩)
    (h64 : (⟨5, ![4, 8, 64, 128, 64]⟩ : Shape).ShapeCasts ⟨3, ![2048, 128, 64]⟩)
    (hb : (⟨3, ![2048, 128, 64]⟩ : Shape).ShapeCasts ⟨5, ![4, 8, 64, 128, 64]⟩) :
    shapeCast ⟨5, ![4, 8, 64, 128, 64]⟩
        (attn3 (shapeCast ⟨3, ![2048, 128, 67]⟩ Q h67) (shapeCast ⟨3, ![2048, 128, 67]⟩ K h67) (shapeCast ⟨3, ![2048, 128, 64]⟩ V h64)) hb
      = attn5 Q K V := by
  funext i
  obtain ⟨a, b, c, r, e, rfl⟩ : ∃ (a : Fin 4) (b : Fin 8) (c : Fin 64) (r : Fin 128) (e : Fin 64), i = ix5 a b c r e :=
    ⟨i 0, i 1, i 2, i 3, i 4, eq_ix5 i⟩
  rw [split64_apply]
  show attn3At _ _ _ (flat a b c) r e = attn5At Q K V a b c r e
  unfold attn3At attn5At
  simp only [merge67_apply, merge64_apply]

end Cert.AttnSpec

end
-- ==== Proof.KernelArray.lean ====
/-
  The kernel's result array.

  The grid has 64 points; point `t` stages blocks `32 t … 32 t + 31` of the three merged input arrays
  (whole along the other two axes), the body leaves the specification of those 32 blocks in the output's
  staging buffer (KernelBlock), and the pipeline writes it back to blocks `32 t … 32 t + 31` of the
  merged result array. The specification at a block reads only that block, so what point `t` writes
  back is the restriction of ONE function of the merged arrays, `AttnSpec.attn3`; the 64 write-backs
  tile the result array, so it ends holding that function. Around the launch the program only merges
  the three leading axes of each argument and splits the result's leading axis again, so by Bridge the
  program's result is `AttnSpec.attn5` of the arguments.
-/
import proofs.«114742_j23132693856576_2_alg».proof.Proof.Gen.KernelIdeal.Frame
import proofs.«114742_j23132693856576_2_alg».proof.Proof.KernelBlock
import proofs.«114742_j23132693856576_2_alg».proof.Proof.Bridge
import Idealize.ShloMosaic.Lib.Pipeline.Value
import Idealize.ShloMosaic.Lib.StableHlo.Run
import Idealize.ShloMosaic.Lib.ValueIdx

set_option maxRecDepth 16384

noncomputable section

namespace Cert.KernelIdeal.Arr

open Idealize.ShloMosaic Idealize.ShloMosaic.TcCoe Idealize.ShloMosaic.ValueIdx
open Idealize.SL Idealize.SL.Sem
open Cert.KernelIdeal Cert.KernelIdeal.Gen Cert.KernelIdeal.Block Cert.AttnSpec

variable (m : (ℓ : Loc nD τ sig) → Buf (Elt Ideal) ℓ) (ρ : Dev nD → PrngReg)

/-- The printed index maps over the grid: point `t` stages blocks `32 t … 32 t + 31` of every window, whole along the other two axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

theorem iblk0_apply (c : Dev nD) (t : Fin cfg0.N) (x : S32x128x67.Idx) (k : S2048x128x67.Idx)
    (hk0 : (k 0).val = 32 * t.val + (x 0).val) (hk1 : (k 1).val = (x 1).val) (hk2 : (k 2).val = (x 2).val) :
    (iblk m c 0 t : Vec Ideal S32x128x67 .f32) x = (V m c main_v0 : S2048x128x67.Idx → EReal) k := by
  obtain ⟨e0, e1, e2, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 32 + 1 * (x 0).val = (k 0).val; rw [e0, hk0]; omega
  | ⟨1, _⟩ => show win0_0.index t (1 : Fin 3) * 128 + 1 * (x 1).val = (k 1).val; rw [e1, hk1]; omega
  | ⟨2, _⟩ => show win0_0.index t (2 : Fin 3) * 67 + 1 * (x 2).val = (k 2).val; rw [e2, hk2]; omega

theorem iblk1_apply (c : Dev nD) (t : Fin cfg0.N) (x : S32x128x67.Idx) (k : S2048x128x67.Idx)
    (hk0 : (k 0).val = 32 * t.val + (x 0).val) (hk1 : (k 1).val = (x 1).val) (hk2 : (k 2).val = (x 2).val) :
    (iblk m c 1 t : Vec Ideal S32x128x67 .f32) x = (V m c main_v1 : S2048x128x67.Idx → EReal) k := by
  obtain ⟨-, -, -, e0, e1, e2, -⟩ := idx_facts t
  unfold iblk
  rw [View.read_apply]
  show V m c main_v1 _ = V m c main_v1 _
  refine congrArg (V m c main_v1) (funext fun a => Fin.ext ?_)
  match a with
  | ⟨0, _⟩ => show win0_1.index t (0 : Fin 3) * 32 + 1 * (x 0).val = (k 0).val; rw [e0, hk0]; omega
  | ⟨1, _⟩ => show win0_1.index t (1 : Fin 3) * 128 + 1 * (x 1).val = (k 1).val; rw [e1, hk1]; omega
  | ⟨2, _⟩ => show win0_1.index t (2 : Fin 3) * 67 + 1 * (x 2).val = (k 2).val; rw [e2, hk2]; omega

theorem iblk2_apply (c : Dev nD) (t : Fin cfg0.N) (x : S32x128x64.Idx) (k : S2048x128x64.Idx)
    (hk0 : (k 0).val = 32 * t.val + (x 0).val) (hk1 : (k 1).val = (x 1).val) (hk2 : (k 2).val = (x 2).val) :
    (iblk m c 2 t : Vec Ideal S32x128x64 .f32) x = (V m c main_v2 : S2048x128x64.Idx → EReal) k := by
  obtain ⟨-, -, -, -, -, -, e0, e1, e2, -⟩ := idx_facts t
  unfold iblk
  rw [View.read_apply]
  show V m c main_v2 _ = V m c main_v2 _
  refine congrArg (V m c main_v2) (funext fun a => Fin.ext ?_)
  match a with
  | ⟨0, _⟩ => show win0_2.index t (0 : Fin 3) * 32 + 1 * (x 0).val = (k 0).val; rw [e0, hk0]; omega
  | ⟨1, _⟩ => show win0_2.index t (1 : Fin 3) * 128 + 1 * (x 1).val = (k 1).val; rw [e1, hk1]; omega
  | ⟨2, _⟩ => show win0_2.index t (2 : Fin 3) * 64 + 1 * (x 2).val = (k 2).val; rw [e2, hk2]; omega

/-- The specification at block `n` of a staged group of 32 blocks is the specification at the block `N` of the arrays that
    the group's block `n` is. -/
theorem attn3At_block (q k : S2048x128x67.Idx → EReal) (v : S2048x128x64.Idx → EReal)
    (q' k' : S32x128x67.Idx → EReal) (v' : S32x128x64.Idx → EReal) (N : Fin 2048) (n : Fin 32)
    (hq : ∀ (r : Fin 128) (d : Fin 67), q' (ix3 n r d) = q (ix3 N r d))
    (hk : ∀ (j : Fin 128) (d : Fin 67), k' (ix3 n j d) = k (ix3 N j d))
    (hv : ∀ (j : Fin 128) (e : Fin 64), v' (ix3 n j e) = v (ix3 N j e)) (r : Fin 128) (e : Fin 64) :
    attn3At q' k' v' n r e = attn3At q k v N r e := by
  unfold attn3At
  simp only [hq, hk, hv]

/-- The merged result array the launch leaves: the specification of the merged arrays as the launch finds them. -/
abbrev result3 (c : Dev nD) : S2048x128x64.Idx → EReal :=
  attn3 (V m c main_v0 : S2048x128x67.Idx → EReal) (V m c main_v1 : S2048x128x67.Idx → EReal) (V m c main_v2 : S2048x128x64.Idx → EReal)

/-- What the body leaves at point `t`, entry by entry, is the result array's entry the write-back puts it at. -/
theorem flushed_fun (c : Dev nD) (t : Fin cfg0.N) (y : S32x128x64.Idx) :
    attn3 (iblk m c 0 t : Vec Ideal S32x128x67 .f32) (iblk m c 1 t : Vec Ideal S32x128x67 .f32) (iblk m c 2 t : Vec Ideal S32x128x64 .f32) y
      = result3 m c (((cfg0.win 3).blk t).view.emb y) := by
  obtain ⟨-, -, -, -, -, -, -, -, -, e9, e10, e11⟩ := idx_facts t
  have hN : cfg0.N = 64 := N_0
  have ht : t.val < 64 := hN ▸ t.isLt
  obtain ⟨n, r, e, rfl⟩ : ∃ (n : Fin 32) (r : Fin 128) (e : Fin 64), y = ix3 n r e := ⟨y 0, y 1, y 2, eq_ix3 y⟩
  have hNn : 32 * t.val + n.val < 2048 := by have := n.isLt; omega
  have hemb : ((cfg0.win 3).blk t).view.emb (ix3 n r e) = ix3 (⟨32 * t.val + n.val, hNn⟩ : Fin 2048) r e :=
    funext fun a => Fin.ext (by
      match a with
      | ⟨0, _⟩ => show win0_3.index t (0 : Fin 3) * 32 + 1 * n.val = 32 * t.val + n.val; rw [e9]; omega
      | ⟨1, _⟩ => show win0_3.index t (1 : Fin 3) * 128 + 1 * r.val = r.val; rw [e10]; omega
      | ⟨2, _⟩ => show win0_3.index t (2 : Fin 3) * 64 + 1 * e.val = e.val; rw [e11]; omega)
  rw [hemb]
  exact attn3At_block _ _ _ _ _ _ ⟨32 * t.val + n.val, hNn⟩ n
    (fun r d => iblk0_apply m c t _ _ rfl rfl rfl) (fun j d => iblk1_apply m c t _ _ rfl rfl rfl)
    (fun j e => iblk2_apply m c t _ _ rfl rfl rfl) r e

/-- What point `t` writes back is block `t` of `result3`. -/
theorem flushed_eq (c : Dev nD) (t : Fin cfg0.N) :
    (dats m 0 c).flushed 3 t = ((cfg0.win 3).blk t).view.read (Elt Ideal) (result3 m c) := by
  show (cfg0.win 3).cut (grid0.coords t) ((dats m 0 c).after 3 t) = _
  rw [after0_3]
  unfold outsAt0
  rw [out_eq]
  funext y
  rw [View.read_apply]
  exact flushed_fun m c t y

/-- An index of the result array is in point `t`'s block iff each coordinate is in the block's range on its axis. -/
theorem mem_blk (t : Fin cfg0.N) (i : S2048x128x64.Idx) :
    i ∈ ((cfg0.win 3).blk t).view.set ↔ ∀ a : Fin 3, win0_3.index t a * S32x128x64.size a ≤ (i a).val ∧ (i a).val < win0_3.index t a * S32x128x64.size a + S32x128x64.size a := by
  show i ∈ ((View.whole main_v3).slice (win0_3.rect t)).set ↔ _
  rw [View.set_slice_whole, Rect.mem_set_unit]
  exact Iff.rfl

/-- Block `n` of the result array is written back by point `n / 32`. -/
theorem cover (i : S2048x128x64.Idx) : ∃ t : Fin cfg0.N, (cfg0.win 3).flush t = true ∧ i ∈ ((cfg0.win 3).blk t).view.set := by
  have hN : cfg0.N = 64 := N_0
  have h0 : (i 0).val < 2048 := (i 0).isLt
  have h1 : (i 1).val < 128 := (i 1).isLt
  have h2 : (i 2).val < 64 := (i 2).isLt
  have htl : (i 0).val / 32 < cfg0.N := by rw [hN]; omega
  obtain ⟨-, -, -, -, -, -, -, -, -, e9, e10, e11⟩ := idx_facts ⟨(i 0).val / 32, htl⟩
  refine ⟨⟨(i 0).val / 32, htl⟩, flush0_3 _, ?_⟩
  rw [mem_blk]
  intro a
  match a with
  | ⟨0, _⟩ =>
    show win0_3.index ⟨(i 0).val / 32, htl⟩ (0 : Fin 3) * 32 ≤ (i 0).val ∧ (i 0).val < win0_3.index ⟨(i 0).val / 32, htl⟩ (0 : Fin 3) * 32 + 32
    rw [e9]; show (i 0).val / 32 * 32 ≤ (i 0).val ∧ (i 0).val < (i 0).val / 32 * 32 + 32; omega
  | ⟨1, _⟩ =>
    show win0_3.index ⟨(i 0).val / 32, htl⟩ (1 : Fin 3) * 128 ≤ (i 1).val ∧ (i 1).val < win0_3.index ⟨(i 0).val / 32, htl⟩ (1 : Fin 3) * 128 + 128
    rw [e10]; omega
  | ⟨2, _⟩ =>
    show win0_3.index ⟨(i 0).val / 32, htl⟩ (2 : Fin 3) * 64 ≤ (i 2).val ∧ (i 2).val < win0_3.index ⟨(i 0).val / 32, htl⟩ (2 : Fin 3) * 64 + 64
    rw [e11]; omega

/-- The merged result array after the launch. -/
theorem final (c : Dev nD) : (dats m 0 c).arrAt 3 cfg0.N = result3 m c :=
  (dats m 0 c).arrAt_eq_of_cover 3 (result3 m c) (fun t _ => flushed_eq m c t) cover

/-! ## Around the launch -/

/-- The launch finds each merged array as its argument with the three leading axes merged. -/
theorem V_v0 (c : Dev nD) : (V m c main_v0 : S2048x128x67.Idx → EReal)
    = shapeCast S2048x128x67 (m ((c : Thread nD τ).loc main_arg0)) shapeCasts_S4x8x64x128x67_S2048x128x67 := by
  show StableHlo.after hostOps0 (fun b => m (c, b)) (Proc.devRef .tc main_v0) = _
  after_results
  rfl
theorem V_v1 (c : Dev nD) : (V m c main_v1 : S2048x128x67.Idx → EReal)
    = shapeCast S2048x128x67 (m ((c : Thread nD τ).loc main_arg1)) shapeCasts_S4x8x64x128x67_S2048x128x67 := by
  show StableHlo.after hostOps0 (fun b => m (c, b)) (Proc.devRef .tc main_v1) = _
  after_results
  rfl
theorem V_v2 (c : Dev nD) : (V m c main_v2 : S2048x128x64.Idx → EReal)
    = shapeCast S2048x128x64 (m ((c : Thread nD τ).loc main_arg2)) shapeCasts_S4x8x64x128x64_S2048x128x64 := by
  show StableHlo.after hostOps0 (fun b => m (c, b)) (Proc.devRef .tc main_v2) = _
  after_results
  rfl

/-- The program's result: the merged result array with its leading axis split. -/
theorem tail_v4 (c : Dev nD) :
    (Pipeline.afterTail₀ cfgs (dats m) 0 (V0 m) [hostOps1] c main_v4 : S4x8x64x128x64.Idx → EReal)
      = shapeCast S4x8x64x128x64 ((dats m 0 c).arrAt 3 cfg0.N : S2048x128x64.Idx → EReal) shapeCasts_S2048x128x64_S4x8x64x128x64 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = (dats m 0 c).arrAt 3 cfg0.N := Pipeline.withArrays_arr spec0 launch0.win.arr_inj c _ _ 3
  rw [hw]
  rfl

/-- The program's result is the specification of its arguments. -/
theorem result_v4 (c : Dev nD) :
    (Pipeline.afterTail₀ cfgs (dats m) 0 (V0 m) [hostOps1] c main_v4 : S4x8x64x128x64.Idx → EReal)
      = attn5 (m ((c : Thread nD τ).loc main_arg0)) (m ((c : Thread nD τ).loc main_arg1)) (m ((c : Thread nD τ).loc main_arg2)) := by
  rw [tail_v4, final]
  unfold result3
  rw [V_v0, V_v1, V_v2]
  exact attn_merge _ _ _ _ _ _

/-- The run, read: the result at the specification of the arguments, the arguments unchanged. -/
theorem run : θ_run defs (onTc (τ := τ) (main (F := Ideal))) ⟨m, fun _ => 0, ρ⟩ fun r => ∀ c : Dev nD,
      r.2.mem ((c.tc : Thread nD τ).loc main_v4)
        = attn5 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result_v4 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Arr
end
-- ==== Proof.RefSide.lean ====
/-
  The reference's result is the specification.

  The reference computes, over the arrays as given: the squared norms of queries and keys summed over
  the feature axis from zero and scaled by `-1/2`; the inner products of the queries of a block with
  its keys (the three leading axes batched, the feature axis contracted); their sum with the query
  term spread along the key axis and the transposed key term spread along the query axis; the
  exponential of the minimum with zero; and the product of that with the values (the key axis
  contracted). Read at `(a, b, c, r, e)` over the extended reals, where the host's sum from the
  zero word is `0 + ∑`, this is `AttnSpec.attn5At Q K V a b c r e`.
-/
import proofs.«114742_j23132693856576_2_alg».proof.Proof.Gen.ReferenceIdeal.Read
import proofs.«114742_j23132693856576_2_alg».proof.Proof.AttnSpec
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Read Cert.AttnSpec
open scoped BigOperators

/-! ## The operations' index maps at an index given by coordinates -/

theorem lidx19 (a : Fin 4) (b : Fin 8) (c : Fin 64) (r : Fin 128) (e : Fin 64) (j : Fin 128) :
    lidx_main_v19 (ix5 a b c r e) j = ix5 a b c r j :=
  funext fun x => Fin.ext (by match x with | ⟨0, _⟩ => rfl | ⟨1, _⟩ => rfl | ⟨2, _⟩ => rfl | ⟨3, _⟩ => rfl | ⟨4, _⟩ => rfl)
theorem ridx19 (a : Fin 4) (b : Fin 8) (c : Fin 64) (r : Fin 128) (e : Fin 64) (j : Fin 128) :
    ridx_main_v19 (ix5 a b c r e) j = ix5 a b c j e :=
  funext fun x => Fin.ext (by match x with | ⟨0, _⟩ => rfl | ⟨1, _⟩ => rfl | ⟨2, _⟩ => rfl | ⟨3, _⟩ => rfl | ⟨4, _⟩ => rfl)
theorem lidx10 (a : Fin 4) (b : Fin 8) (c : Fin 64) (r j : Fin 128) (d : Fin 67) :
    lidx_main_v10 (ix5 a b c r j) d = ix5 a b c r d :=
  funext fun x => Fin.ext (by match x with | ⟨0, _⟩ => rfl | ⟨1, _⟩ => rfl | ⟨2, _⟩ => rfl | ⟨3, _⟩ => rfl | ⟨4, _⟩ => rfl)
theorem ridx10 (a : Fin 4) (b : Fin 8) (c : Fin 64) (r j : Fin 128) (d : Fin 67) :
    ridx_main_v10 (ix5 a b c r j) d = ix5 a b c j d :=
  funext fun x => Fin.ext (by match x with | ⟨0, _⟩ => rfl | ⟨1, _⟩ => rfl | ⟨2, _⟩ => rfl | ⟨3, _⟩ => rfl | ⟨4, _⟩ => rfl)
theorem idx11 (a : Fin 4) (b : Fin 8) (c : Fin 64) (r j : Fin 128) :
    idx_main_v11 (ix5 a b c r j) = ix5 a b c r (0 : Fin 1) :=
  funext fun x => Fin.ext (by match x with | ⟨0, _⟩ => rfl | ⟨1, _⟩ => rfl | ⟨2, _⟩ => rfl | ⟨3, _⟩ => rfl | ⟨4, _⟩ => rfl)
theorem idx14 (a : Fin 4) (b : Fin 8) (c : Fin 64) (r j : Fin 128) :
    idx_main_v14 (ix5 a b c r j) = ix5 a b c (0 : Fin 1) j :=
  funext fun x => Fin.ext (by match x with | ⟨0, _⟩ => rfl | ⟨1, _⟩ => rfl | ⟨2, _⟩ => rfl | ⟨3, _⟩ => rfl | ⟨4, _⟩ => rfl)
theorem idx13 (a : Fin 4) (b : Fin 8) (c : Fin 64) (z : Fin 1) (j : Fin 128) :
    idx_main_v13 (ix5 a b c z j) = ix5 a b c j z :=
  funext fun x => Fin.ext (by match x with | ⟨0, _⟩ => rfl | ⟨1, _⟩ => rfl | ⟨2, _⟩ => rfl | ⟨3, _⟩ => rfl | ⟨4, _⟩ => rfl)
theorem idx2 (a : Fin 4) (b : Fin 8) (c : Fin 64) (r : Fin 128) (z : Fin 1) :
    idx_main_v2 (ix5 a b c r z) = ix4 a b c r :=
  funext fun x => Fin.ext (by match x with | ⟨0, _⟩ => rfl | ⟨1, _⟩ => rfl | ⟨2, _⟩ => rfl | ⟨3, _⟩ => rfl)
theorem idx7 (a : Fin 4) (b : Fin 8) (c : Fin 64) (r : Fin 128) (z : Fin 1) :
    idx_main_v7 (ix5 a b c r z) = ix4 a b c r :=
  funext fun x => Fin.ext (by match x with | ⟨0, _⟩ => rfl | ⟨1, _⟩ => rfl | ⟨2, _⟩ => rfl | ⟨3, _⟩ => rfl)
theorem idx1 (a : Fin 4) (b : Fin 8) (c : Fin 64) (r : Fin 128) (d : Fin 67) :
    idx_main_v1 (ix4 a b c r) d = ix5 a b c r d :=
  funext fun x => Fin.ext (by match x with | ⟨0, _⟩ => rfl | ⟨1, _⟩ => rfl | ⟨2, _⟩ => rfl | ⟨3, _⟩ => rfl | ⟨4, _⟩ => rfl)
theorem idx6 (a : Fin 4) (b : Fin 8) (c : Fin 64) (r : Fin 128) (d : Fin 67) :
    idx_main_v6 (ix4 a b c r) d = ix5 a b c r d :=
  funext fun x => Fin.ext (by match x with | ⟨0, _⟩ => rfl | ⟨1, _⟩ => rfl | ⟨2, _⟩ => rfl | ⟨3, _⟩ => rfl | ⟨4, _⟩ => rfl)

/-! ## The stages -/

/-- The query term: `-1/2` times the squared norm of query row `r` of block `(a, b, c)`. -/
theorem qterm_apply (Q : (⟨S4x8x64x128x67, .f32⟩ : BufTy).Contents (Elt Ideal)) (a : Fin 4) (b : Fin 8) (c : Fin 64) (r : Fin 128) (z : Fin 1) :
    val_main_v4 (F := Ideal) Q (ix5 a b c r z) = negHalf * ∑ d : Fin 67, Q (ix5 a b c r d) * Q (ix5 a b c r d) := by
  rw [val_main_v4_apply, val_main_v3_apply, val_main_cst_0_apply, val_main_v2_apply, idx2, val_main_v1_apply, val_main_cst_apply]
  simp only [idx1, val_main_v0_apply, Ideal.mulf_def, Ideal.ofBits_def, Ideal.ofBits_zero_f32, zero_add]

/-- The key term: `-1/2` times the squared norm of key row `j` of block `(a, b, c)`. -/
theorem kterm_apply (K : (⟨S4x8x64x128x67, .f32⟩ : BufTy).Contents (Elt Ideal)) (a : Fin 4) (b : Fin 8) (c : Fin 64) (j : Fin 128) (z : Fin 1) :
    val_main_v9 (F := Ideal) K (ix5 a b c j z) = negHalf * ∑ d : Fin 67, K (ix5 a b c j d) * K (ix5 a b c j d) := by
  rw [val_main_v9_apply, val_main_v8_apply, val_main_cst_2_apply, val_main_v7_apply, idx7, val_main_v6_apply, val_main_cst_1_apply]
  simp only [idx6, val_main_v5_apply, Ideal.mulf_def, Ideal.ofBits_def, Ideal.ofBits_zero_f32, zero_add]

/-- The weight of key `j` for query `r` in block `(a, b, c)`. -/
theorem weight_apply (Q K : (⟨S4x8x64x128x67, .f32⟩ : BufTy).Contents (Elt Ideal)) (a : Fin 4) (b : Fin 8) (c : Fin 64) (r j : Fin 128) :
    val_main_v18 (F := Ideal) Q K (ix5 a b c r j)
      = Ideal.exp (min (((∑ d : Fin 67, Q (ix5 a b c r d) * K (ix5 a b c j d))
          + negHalf * ∑ d : Fin 67, Q (ix5 a b c r d) * Q (ix5 a b c r d))
          + negHalf * ∑ d : Fin 67, K (ix5 a b c j d) * K (ix5 a b c j d)) zeroW) := by
  rw [val_main_v18_apply, val_main_v17_apply, val_main_v16_apply, val_main_cst_3_apply, val_main_v15_apply, val_main_v12_apply,
    val_main_v10_apply, val_main_v11_apply, idx11, qterm_apply, val_main_v14_apply, idx14, val_main_v13_apply, idx13, kterm_apply]
  simp only [lidx10, ridx10, Ideal.hostUnary_exp_def, Ideal.minimumf_def, Ideal.addf_def, Ideal.ofBits_def]

/-- The reference's result, entry by entry, is the specification. -/
theorem ref_eq (Q K : (⟨S4x8x64x128x67, .f32⟩ : BufTy).Contents (Elt Ideal)) (V : (⟨S4x8x64x128x64, .f32⟩ : BufTy).Contents (Elt Ideal)) :
    val_main_v19 (F := Ideal) Q K V = attn5 Q K V := by
  funext i
  obtain ⟨a, b, c, r, e, rfl⟩ : ∃ (a : Fin 4) (b : Fin 8) (c : Fin 64) (r : Fin 128) (e : Fin 64), i = ix5 a b c r e :=
    ⟨i 0, i 1, i 2, i 3, i 4, eq_ix5 i⟩
  rw [val_main_v19_apply]
  show _ = attn5At Q K V a b c r e
  unfold attn5At entry
  refine Finset.sum_congr rfl fun j _ => ?_
  rw [lidx19, ridx19, weight_apply]

end Cert.ReferenceIdeal.RefValue

end
-- ==== Proof.lean ====
/-
  Block-local radial-basis attention: a Pallas kernel against its jnp reference, over the extended reals.

  Both programs take queries and keys f32[4, 8, 64, 128, 67] and values f32[4, 8, 64, 128, 64]; the three leading
  axes name 2048 independent blocks of 128 rows. In each block, entry `(i, e)` of the result is

      ∑_j exp (min ((q_i · k_j + (-1/2) ‖q_i‖²) + (-1/2) ‖k_j‖², 0)) · v_j e        (Proof/AttnSpec.lean).

  The reference computes this with batched products and broadcasts over the arrays as given (Proof/RefSide.lean,
  over the generated read-back of its run). The kernel merges the three leading axes, walks the 2048 blocks in
  64 grid points of 32 blocks, each point in two loop trips of 16 blocks, computes the same expression with the
  weights and values rounded to bf16 on the way into the second product — the identity on the extended reals —
  and splits the result's leading axis again (Proof/KernelPayload.lean: the stored value at an index;
  Proof/KernelBlock.lean: the two trips' stores fill the staged output block with one function of the staged
  inputs; Proof/KernelArray.lean: the 64 write-backs fill the result array with one function of the merged
  arrays; Proof/Bridge.lean: merging and splitting the block name). The two sides are the same sums of the same
  terms, so no law of the extended reals beyond rewriting is used and the precondition is never opened.

  The three frames: the kernel's two are the generated frame certificates; the reference's is its generated run
  with the result dropped. The idealization rewrote nothing, so `preserves` is `True`.
-/
import proofs.«114742_j23132693856576_2_alg».proof.Defs
import proofs.«114742_j23132693856576_2_alg».proof.Proof.Gen.Kernel
import proofs.«114742_j23132693856576_2_alg».proof.Proof.Gen.Kernel.Skeleton
import proofs.«114742_j23132693856576_2_alg».proof.Proof.Gen.Kernel.Loops
import proofs.«114742_j23132693856576_2_alg».proof.Proof.Gen.Kernel.Launch
import proofs.«114742_j23132693856576_2_alg».proof.Proof.Gen.Kernel.Points
import proofs.«114742_j23132693856576_2_alg».proof.Proof.Gen.Kernel.Frame
import proofs.«114742_j23132693856576_2_alg».proof.Proof.Gen.KernelIdeal
import proofs.«114742_j23132693856576_2_alg».proof.Proof.Gen.KernelIdeal.Skeleton
import proofs.«114742_j23132693856576_2_alg».proof.Proof.Gen.KernelIdeal.Loops
import proofs.«114742_j23132693856576_2_alg».proof.Proof.Gen.KernelIdeal.Launch
import proofs.«114742_j23132693856576_2_alg».proof.Proof.Gen.KernelIdeal.Points
import proofs.«114742_j23132693856576_2_alg».proof.Proof.Gen.KernelIdeal.Frame
import proofs.«114742_j23132693856576_2_alg».proof.Proof.Gen.ReferenceIdeal
import proofs.«114742_j23132693856576_2_alg».proof.Proof.Gen.ReferenceIdeal.Run
import proofs.«114742_j23132693856576_2_alg».proof.Proof.Gen.ReferenceIdeal.Read
import proofs.«114742_j23132693856576_2_alg».proof.Proof.Gen.Pre_finite_inputs
import proofs.«114742_j23132693856576_2_alg».proof.Proof.KernelArray
import proofs.«114742_j23132693856576_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the specification of the arguments in their result. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
